-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S2x16x2048x64.size a
  hwx0_3 : ∀ i : grid0.Coords, EltTy.bits .f32 = 32 ∨ (Rect.block (s := S2x16x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .f32 = 32 ∨ (Rect.block (s := S2x16x2048x2048) S1x1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048, .f32⟩
  | .hbm, ⟨10, _⟩ => ⟨S_, .f32⟩
  | .hbm, ⟨11, _⟩ => ⟨S2x16x2048, .f32⟩
  | .hbm, ⟨12, _⟩ => ⟨S2x16x2048, .f32⟩
  | .hbm, ⟨13, _⟩ => ⟨S2x16x2048x1, .f32⟩
  | .hbm, ⟨14, _⟩ => ⟨S2x16x2048x2048, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.AttnMath.lean ====
/-
  The scalar mathematics of one attention row, on the extended reals.

  A score is the contraction of a query row with a key row over the 64 features, scaled by 1/8. One side scales
  the query row first (each entry times the word 0.125) and then contracts; the other contracts and then divides by
  the square root of 64. On real rows these agree: the square root of 64 is 8, and a real factor moves across a
  finite sum of reals.

  A softmax row is exp (s k - M) over the sum of those exponentials, M the row's maximum. One side multiplies by
  the reciprocal 1 / L of the sum, the other divides by L. On the extended reals x * (1 / L) = x / L whenever
  L is not zero, and for a nonempty real row L is a positive real: M is real, so each exponential is a positive real.
-/
import Idealize.ShloMosaic.PureOps.Ideal
import Idealize.ShloMosaic.PureOps.Ideal.Laws

noncomputable section

open scoped BigOperators

namespace Cert.AttnMath

open Idealize.ShloMosaic

/-! ## The constants -/

/-- The word `0.125` denotes the real 1/8. -/
theorem ofBits_eighth : Ideal.ofBits .f32 0x3E000000#32 = ((1 / 8 : ℝ) : EReal) := by
  simp [Ideal.ofBits, Ideal.ieee, -EReal.coe_mul]; norm_num

/-- The word `64.0` denotes the real 64. -/
theorem ofBits_64 : Ideal.ofBits .f32 0x42800000#32 = ((64 : ℝ) : EReal) := by
  simp [Ideal.ofBits, Ideal.ieee, -EReal.coe_mul]; norm_num

/-- The word `1.0` denotes 1. -/
theorem ofBits_one : Ideal.ofBits .f32 0x3F800000#32 = 1 := by
  simp [Ideal.ofBits, Ideal.ieee, -EReal.coe_mul]; norm_num

/-- The word of negative infinity denotes the bottom of the extended reals. -/
theorem ofBits_neg_inf : Ideal.ofBits .f32 0xFF800000#32 = ⊥ := by
  simp [Ideal.ofBits, Ideal.ieee]

/-- The square root of 64 is 8. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A score -/

/-- Scale the query row by the word 0.125, then contract with the key row. -/
def scoreScaled {n : ℕ} (q k : Fin n → EReal) : EReal := ∑ d, (q d * Ideal.ofBits .f32 0x3E000000#32) * k d

/-- Contract the rows, then divide by the square root of the word 64.0. -/
def scoreDivided {n : ℕ} (q k : Fin n → EReal) : EReal :=
  Ideal.div (∑ d, q d * k d) (Ideal.sqrt (Ideal.ofBits .f32 0x42800000#32))

theorem scoreScaled_coe {n : ℕ} (q k : Fin n → ℝ) :
    scoreScaled (fun d => (q d : EReal)) (fun d => (k d : EReal)) = (((∑ d, q d * k d) * (1 / 8) : ℝ) : EReal) := by
  unfold scoreScaled
  rw [ofBits_eighth, Finset.sum_mul, coe_sum]
  refine Finset.sum_congr rfl fun d _ => ?_
  rw [← EReal.coe_mul, ← EReal.coe_mul]
  congr 1; ring

theorem scoreDivided_coe {n : ℕ} (q k : Fin n → ℝ) :
    scoreDivided (fun d => (q d : EReal)) (fun d => (k d : EReal)) = (((∑ d, q d * k d) * (1 / 8) : ℝ) : EReal) := by
  unfold scoreDivided
  rw [sqrt_64, Ideal.div_coe (by norm_num : (8 : ℝ) ≠ 0), EReal.coe_mul, coe_sum]
  simp only [EReal.coe_mul]

/-- On real rows the two scores are one real. -/
theorem scoreScaled_eq_scoreDivided {n : ℕ} (q k : Fin n → EReal) (hq : ∀ d, ∃ r : ℝ, q d = r) (hk : ∀ d, ∃ r : ℝ, k d = r) :
    scoreScaled q k = scoreDivided q k ∧ ∃ r : ℝ, scoreDivided q k = r := by
  choose qr hqr using hq
  choose kr hkr using hk
  obtain rfl : q = fun d => (qr d : EReal) := funext hqr
  obtain rfl : k = fun d => (kr d : EReal) := funext hkr
  exact ⟨(scoreScaled_coe qr kr).trans (scoreDivided_coe qr kr).symm, _, scoreDivided_coe qr kr⟩

/-! ## A softmax row -/

/-- The maximum of a row, folded from negative infinity. -/
def rowMax {n : ℕ} (s : Fin n → EReal) : EReal := Finset.univ.fold max (Ideal.ofBits .f32 0xFF800000#32) s

/-- The exponential of an entry less the row's maximum. -/
def expShifted {n : ℕ} (s : Fin n → EReal) (k : Fin n) : EReal := Ideal.exp (s k - rowMax s)

/-- The sum of the row's shifted exponentials. -/
def rowSum {n : ℕ} (s : Fin n → EReal) : EReal := ∑ k, expShifted s k

/-- The softmax entry as a product with the reciprocal of the row sum. -/
def softmaxMul {n : ℕ} (s : Fin n → EReal) (k : Fin n) : EReal :=
  expShifted s k * Ideal.div (Ideal.ofBits .f32 0x3F800000#32) (rowSum s)

/-- The softmax entry as a quotient by the row sum. -/
def softmaxDiv {n : ℕ} (s : Fin n → EReal) (k : Fin n) : EReal := Ideal.div (expShifted s k) (rowSum s)

/-- Against a divisor that is not zero, multiplying by the reciprocal is dividing. -/
theorem mul_div_one (x y : EReal) (hy : y ≠ 0) : x * Ideal.div (Ideal.ofBits .f32 0x3F800000#32) y = Ideal.div x y := by
  rw [ofBits_one, Ideal.div, Ideal.div, if_neg hy, if_neg hy, one_mul]

/-- The maximum of a nonempty real row is a real. -/
theorem rowMax_real {n : ℕ} (hn : 0 < n) (r : Fin n → ℝ) : ∃ M : ℝ, rowMax (fun k => (r k : EReal)) = M := by
  have hb : ⊥ < rowMax (fun k => (r k : EReal)) := by
    unfold rowMax
    rw [Finset.lt_fold_max]
    exact Or.inr ⟨⟨0, hn⟩, Finset.mem_univ _, EReal.bot_lt_coe _⟩
  have ht : rowMax (fun k => (r k : EReal)) < ⊤ := by
    unfold rowMax
    rw [Finset.fold_max_lt]
    exact ⟨by rw [ofBits_neg_inf]; exact bot_lt_top, fun k _ => EReal.coe_lt_top _⟩
  exact ⟨(rowMax fun k => (r k : EReal)).toReal, (EReal.coe_toReal ht.ne hb.ne').symm⟩

/-- The row sum of a nonempty real row is not zero: it is a positive real. -/
theorem rowSum_ne_zero {n : ℕ} (hn : 0 < n) (s : Fin n → EReal) (hs : ∀ k, ∃ r : ℝ, s k = r) : rowSum s ≠ 0 := by
  choose r hr using hs
  obtain rfl : s = fun k => (r k : EReal) := funext hr
  obtain ⟨M, hM⟩ := rowMax_real hn r
  have he : ∀ k, expShifted (fun k => (r k : EReal)) k = ((Real.exp (r k - M) : ℝ) : EReal) := fun k => by
    unfold expShifted
    rw [hM, ← EReal.coe_sub, Ideal.exp_coe]
  unfold rowSum
  rw [Finset.sum_congr rfl fun k _ => he k, ← coe_sum]
  have hpos : 0 < ∑ k : Fin n, Real.exp (r k - M) :=
    Finset.sum_pos (fun k _ => Real.exp_pos _) ⟨⟨0, hn⟩, Finset.mem_univ _⟩
  exact_mod_cast hpos.ne'

/-- On a nonempty real row the two softmax entries are equal. -/
theorem softmaxMul_eq_softmaxDiv {n : ℕ} (hn : 0 < n) (s : Fin n → EReal) (hs : ∀ k, ∃ r : ℝ, s k = r) (k : Fin n) :
    softmaxMul s k = softmaxDiv s k :=
  mul_div_one _ _ (rowSum_ne_zero hn s hs)

/-- One attention row: scaling the query first and multiplying by the reciprocal of the row sum is contracting, dividing
    by the root of 64 and dividing by the row sum, when the query row and every key row are real. -/
theorem attn_row_eq {n m : ℕ} (hm : 0 < m) (q : Fin n → EReal) (K : Fin m → Fin n → EReal)
    (hq : ∀ d, ∃ r : ℝ, q d = r) (hK : ∀ k d, ∃ r : ℝ, K k d = r) (k : Fin m) :
    softmaxMul (fun k' => scoreScaled q (K k')) k = softmaxDiv (fun k' => scoreDivided q (K k')) k := by
  have e : (fun k' => scoreScaled q (K k')) = fun k' => scoreDivided q (K k') :=
    funext fun k' => (scoreScaled_eq_scoreDivided q (K k') hq (hK k')).1
  rw [e]
  exact softmaxMul_eq_softmaxDiv hm _ (fun k' => (scoreScaled_eq_scoreDivided q (K k') hq (hK k')).2) k

end Cert.AttnMath

end
-- ==== Proof.LibSoftmaxRows.lean ====
/-
  A row softmax of an `[a, b]` matrix on the extended reals, as a vector program computes it, read at an entry:
  the lane maximum over axis 1 kept as a column and broadcast back, the exponential of the difference, the lane sum of
  those kept as a column, its reciprocal broadcast back and multiplied in. General lemmas over any extents.
-/
import proofs.«139377_j64544768524298_2_alg».proof.Proof.LibKeepdims
import proofs.«139377_j64544768524298_2_alg».proof.Proof.AttnMath

noncomputable section

open scoped BigOperators

namespace Cert.LibSoftmaxRows

open Idealize.ShloMosaic Idealize.ShloMosaic.ValueIdx Cert.AttnMath Cert.LibKeepdims

/-- A lane maximum over the second axis of an `[a, b]` matrix, from negative infinity, is at row `r` the maximum of
    that row's entries. -/
theorem multiReduction_max_rows {a b : ℕ} (src : FVec Ideal ⟨2, ![a, b]⟩ .f32)
    (h : (⟨2, ![a, b]⟩ : Shape).Reduces [1] ⟨1, ![a]⟩) (hφ : FKind.Formats .f32)
    (hacc : (0xFF800000#32 : BitVec (FTy.bits .f32)) = FKind.maximumf.neutral .f32 hφ) (r : Fin a) :
    multiReduction .maximumf [1] ⟨1, ![a]⟩ src 0xFF800000#32 h hφ hacc (ix1 r) = rowMax (fun k : Fin b => src (ix2 r k)) := by
  refine (Ideal.multiReduction_maximumf_single src _ h hφ hacc (ix1 r)).trans ?_
  have hf : (src ∘ h.lift (ix1 r)) = fun k : Fin b => src (ix2 r k) :=
    funext fun k => congrArg src (funext fun ax => Fin.ext (by
      match ax with
      | ⟨0, _⟩ => rfl
      | ⟨1, _⟩ => rfl))
  exact congrArg (fun f => Finset.fold max (Ideal.ofBits .f32 0xFF800000#32) f (Finset.univ : Finset (Fin b))) hf

/-- The exponential of a matrix less its row maxima (the maxima kept as a column and broadcast along the rows), read at
    `(r, k)`: the shifted exponential of row `r` at `k`. -/
theorem exp_sub_rowmax_apply {a b : ℕ} (S : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hacc : (0xFF800000#32 : BitVec (FTy.bits .f32)) = FKind.maximumf.neutral .f32 hφ) (r : Fin a) (k : Fin b) :
    exp (subf S (broadcastTo ⟨2, ![a, b]⟩ (shapeCast ⟨2, ![a, 1]⟩
      (multiReduction .maximumf [1] ⟨1, ![a]⟩ S 0xFF800000#32 hr hφ hacc) hc) hb)) (ix2 r k)
      = expShifted (fun k' : Fin b => S (ix2 r k')) k := by
  show Ideal.exp (S (ix2 r k) - broadcastTo ⟨2, ![a, b]⟩ (shapeCast ⟨2, ![a, 1]⟩
      (multiReduction .maximumf [1] ⟨1, ![a]⟩ S 0xFF800000#32 hr hφ hacc) hc) hb (ix2 r k)) = _
  rw [broadcastTo_a1_ab_apply, shapeCast_a_a1_apply, multiReduction_max_rows]
  rfl

/-- A matrix `E` whose row `r` holds the shifted exponentials of a row `s`, multiplied by the reciprocal of its lane
    sums (the sums kept as a column, one over them, broadcast along the rows), read at `(r, k)`: the softmax entry of
    `s` at `k`, as a product with the reciprocal. -/
theorem mul_recip_rowsum_apply {a b : ℕ} (E : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hacc : (0x00000000#32 : BitVec (FTy.bits .f32)) = FKind.add.neutral .f32 hφ) (r : Fin a) (k : Fin b)
    (s : Fin b → EReal) (hE : ∀ k' : Fin b, E (ix2 r k') = expShifted s k') :
    mulf E (broadcastTo ⟨2, ![a, b]⟩ (divf (broadcast ⟨2, ![a, 1]⟩ (Scalar.ofBits (F := Ideal) .f32 0x3F800000#32))
      (shapeCast ⟨2, ![a, 1]⟩ (multiReduction .add [1] ⟨1, ![a]⟩ E 0x00000000#32 hr hφ hacc) hc)) hb) (ix2 r k)
      = softmaxMul s k := by
  show E (ix2 r k) * broadcastTo ⟨2, ![a, b]⟩ (divf (broadcast ⟨2, ![a, 1]⟩ (Scalar.ofBits (F := Ideal) .f32 0x3F800000#32))
      (shapeCast ⟨2, ![a, 1]⟩ (multiReduction .add [1] ⟨1, ![a]⟩ E 0x00000000#32 hr hφ hacc) hc)) hb (ix2 r k) = _
  rw [broadcastTo_a1_ab_apply]
  show E (ix2 r k) * Ideal.div (Ideal.ofBits .f32 0x3F800000#32)
      (shapeCast ⟨2, ![a, 1]⟩ (multiReduction .add [1] ⟨1, ![a]⟩ E 0x00000000#32 hr hφ hacc) hc (ix2 r (0 : Fin 1))) = _
  rw [shapeCast_a_a1_apply, multiReduction_add_rows, hE k, Finset.sum_congr rfl fun k' _ => hE k']
  rfl

end Cert.LibSoftmaxRows

end
-- ==== Proof.KernelPay.lean ====
/-
  The kernel body's arithmetic at one grid point, read at an index on the extended reals.

  From a query block P0 of 512 rows, a key block P1 and a value block P2 of 2048 rows each (all of 64 features), the
  body forms the 512 × 2048 block of scores — query rows times the word 0.125, contracted with key rows —, takes the
  row softmax of it as a product with the reciprocal of the row sum (the attention block it stores), and contracts
  the attention block with the value block over the 2048 key positions (the output block it stores). A change of
  float format is the identity here.
-/
import proofs.«139377_j64544768524298_2_alg».proof.Proof.Gen.KernelIdeal.Skeleton
import proofs.«139377_j64544768524298_2_alg».proof.Proof.LibSoftmaxRows
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.AttnMath Cert.LibSoftmaxRows

/-- A `[1, 1, a, b]` block cast to the matrix `[a, b]` reads, at `(r, d)`, the block at `(0, 0, r, d)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (r : Fin a) (d : Fin b) :
    shapeCast ⟨2, ![a, b]⟩ x h (ix2 r d) = x (ix4 (0 : Fin 1) (0 : Fin 1) r d) :=
  shapeCast_apply x h _ _ (by
    rw [Shape.rowMajor_val_four, Shape.rowMajor_val_two]
    show ((0 * 1 + 0) * a + r.val) * b + d.val = r.val * b + d.val
    simp)

/-! ## The body's values, as a composition -/

/-- The block of scores: query rows scaled by the word 0.125, contracted with the key rows over the features. -/
def scoreBlock (P0 : Vec Ideal S1x1x512x64 .f32) (P1 : Vec Ideal S1x1x2048x64 .f32) : FVec Ideal S512x2048 .f32 :=
  matmul dot_S512x64_S2048x64_S512x2048_1_1_0_0_n_n none
    (truncf .bf16 (mulf (shapeCast S512x64 P0 shapeCasts_S1x1x512x64_S512x64)
      (broadcast S512x64 (Scalar.ofBits .f32 0x3E000000#32))) bitsLt_bf16_f32)
    (truncf .bf16 (shapeCast S2048x64 P1 shapeCasts_S1x1x2048x64_S2048x64) bitsLt_bf16_f32)
    (constant S512x2048 .f32 0x00000000#32)

/-- The exponentials of a score block less its row maxima. -/
def expBlock (S : FVec Ideal S512x2048 .f32) : FVec Ideal S512x2048 .f32 :=
  exp (subf S (broadcastTo S512x2048 (shapeCast S512x1
    (multiReduction .maximumf [1] S512 S 0xFF800000#32 reduces_S512x2048_S512 (.inl rfl) rfl) shapeCasts_S512_S512x1)
    broadcasts_S512x1_S512x2048))

/-- Those exponentials times the reciprocal of their row sums. -/
def softBlock (S : FVec Ideal S512x2048 .f32) : FVec Ideal S512x2048 .f32 :=
  mulf (expBlock S) (broadcastTo S512x2048 (divf (broadcast S512x1 (Scalar.ofBits .f32 0x3F800000#32))
    (shapeCast S512x1 (multiReduction .add [1] S512 (expBlock S) 0x00000000#32 reduces_S512x2048_S512 (.inl rfl) rfl)
      shapeCasts_S512_S512x1)) broadcasts_S512x1_S512x2048)

/-- An attention block contracted with the value block over the key positions. -/
def outBlock (A : FVec Ideal S512x2048 .f32) (P2 : Vec Ideal S1x1x2048x64 .f32) : FVec Ideal S512x64 .f32 :=
  matmul dot_S512x2048_S2048x64_S512x64_1_0_0_1_n_n none (truncf .bf16 A bitsLt_bf16_f32)
    (truncf .bf16 (shapeCast S2048x64 P2 shapeCasts_S1x1x2048x64_S2048x64) bitsLt_bf16_f32)
    (constant S512x64 .f32 0x00000000#32)

/-- The attention payload is the softmax block of the score block. -/
theorem pay2_eq (P0 : Vec Ideal S1x1x512x64 .f32) (P1 : Vec Ideal S1x1x2048x64 .f32) :
    k0_pay2 (F := Ideal) P0 P1 = softBlock (scoreBlock P0 P1) := rfl

/-- The output payload is the attention payload contracted with the value block. -/
theorem pay4_eq (P0 : Vec Ideal S1x1x512x64 .f32) (P1 P2 : Vec Ideal S1x1x2048x64 .f32) :
    k0_pay4 (F := Ideal) P0 P1 P2 = outBlock (k0_pay2 (F := Ideal) P0 P1) P2 := rfl

/-! ## The two contractions at an index -/

theorem lhs_score_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_score_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_score_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_score_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score block at `(r, k)`: the scaled query row `r` contracted with key row `k`. -/
theorem score_at (P0 : Vec Ideal S1x1x512x64 .f32) (P1 : Vec Ideal S1x1x2048x64 .f32) (r : Fin 512) (k : Fin 2048) :
    scoreBlock P0 P1 (ix2 r k)
      = scoreScaled (fun d : Fin 64 => P0 (ix4 (0 : Fin 1) (0 : Fin 1) r d)) (fun d : Fin 64 => P1 (ix4 (0 : Fin 1) (0 : Fin 1) k d)) := by
  unfold scoreBlock scoreScaled
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 r k) ((contrEquiv1 dot_S512x64_S2048x64_S512x2048_1_1_0_0_n_n 64 rfl rfl).symm d) = ix2 r d := funext fun a => Fin.ext (by
    match a with
    | ⟨0, _⟩ => exact lhs_score_0 _ _
    | ⟨1, _⟩ => exact (lhs_score_1 _ _).trans hk)
  have er : dot_S512x64_S2048x64_S512x2048_1_1_0_0_n_n.rhsIdx (ix2 r k) ((contrEquiv1 dot_S512x64_S2048x64_S512x2048_1_1_0_0_n_n 64 rfl rfl).symm d) = ix2 k d := funext fun a => Fin.ext (by
    match a with
    | ⟨0, _⟩ => exact rhs_score_0 _ _
    | ⟨1, _⟩ => exact (rhs_score_1 _ _).trans hk)
  rw [el, er]
  show (shapeCast S512x64 P0 shapeCasts_S1x1x512x64_S512x64 (ix2 r d) * Ideal.ofBits .f32 0x3E000000#32)
      * shapeCast S2048x64 P1 shapeCasts_S1x1x2048x64_S2048x64 (ix2 k d) = _
  rw [shapeCast_11ab_ab_apply, shapeCast_11ab_ab_apply]

theorem lhs_out_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_out_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_out_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_out_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The output block at `(r, d)`: attention row `r` contracted with value column `d` over the key positions. -/
theorem out_at (A : FVec Ideal S512x2048 .f32) (P2 : Vec Ideal S1x1x2048x64 .f32) (r : Fin 512) (d : Fin 64) :
    outBlock A P2 (ix2 r d) = ∑ k : Fin 2048, A (ix2 r k) * P2 (ix4 (0 : Fin 1) (0 : Fin 1) k d) := by
  unfold outBlock
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact lhs_out_0 _ _
    | ⟨1, _⟩ => exact (lhs_out_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (rhs_out_0 _ _).trans hk
    | ⟨1, _⟩ => exact rhs_out_1 _ _)
  rw [el, er]
  show A (ix2 r k) * shapeCast S2048x64 P2 shapeCasts_S1x1x2048x64_S2048x64 (ix2 k d) = _
  rw [shapeCast_11ab_ab_apply]

/-! ## The payloads at an index -/

/-- The attention payload at `(r, k)`: the softmax, as a product with the reciprocal of the row sum, of the scaled scores of
    query row `r` against every key row, at `k`. -/
theorem pay2_at (P0 : Vec Ideal S1x1x512x64 .f32) (P1 : Vec Ideal S1x1x2048x64 .f32) (r : Fin 512) (k : Fin 2048) :
    k0_pay2 (F := Ideal) P0 P1 (ix2 r k)
      = softmaxMul (fun k' : Fin 2048 => scoreScaled (fun d : Fin 64 => P0 (ix4 (0 : Fin 1) (0 : Fin 1) r d))
          (fun d : Fin 64 => P1 (ix4 (0 : Fin 1) (0 : Fin 1) k' d))) k := by
  rw [pay2_eq]
  unfold softBlock
  refine mul_recip_rowsum_apply (expBlock (scoreBlock P0 P1)) _ _ _ _ _ r k _ fun k' => ?_
  unfold expBlock
  refine (exp_sub_rowmax_apply (scoreBlock P0 P1) _ _ _ _ _ r k').trans ?_
  exact congrArg (fun s => expShifted s k') (funext fun k'' => score_at P0 P1 r k'')

/-- The output payload at `(r, d)`: the attention payload's row `r` contracted with value column `d`. -/
theorem pay4_at (P0 : Vec Ideal S1x1x512x64 .f32) (P1 P2 : Vec Ideal S1x1x2048x64 .f32) (r : Fin 512) (d : Fin 64) :
    k0_pay4 (F := Ideal) P0 P1 P2 (ix2 r d)
      = ∑ k : Fin 2048, k0_pay2 (F := Ideal) P0 P1 (ix2 r k) * P2 (ix4 (0 : Fin 1) (0 : Fin 1) k d) := by
  rw [pay4_eq]
  exact out_at _ P2 r d

end Cert.KernelIdeal.Pay

end
-- ==== Proof.AttnSpec.lean ====
/-
  What the two result arrays hold, as functions of the three argument arrays Q, K, V of shape [2, 16, 2048, 64],
  index by index on the extended reals.

  For a batch b, head h and query position q, the score against key position k is the contraction over the 64 features
  of Q[b, h, q, ·] with K[b, h, k, ·], divided by the square root of 64. The attention array at [b, h, q, k] is the
  softmax over k of that row of scores. The output array at [b, h, q, d] is the sum over k of the attention entry
  times V[b, h, k, d].
-/
import Idealize.ShloMosaic.Lib.ValueIdx
import proofs.«139377_j64544768524298_2_alg».proof.Proof.AttnMath

noncomputable section

open scoped BigOperators

namespace Cert.AttnSpec

open Idealize.ShloMosaic Idealize.ShloMosaic.ValueIdx Cert.AttnMath

/-- Every entry of an array is a real. -/
def AllReal {s : Shape} (X : s.Idx → EReal) : Prop := ∀ i, ∃ r : ℝ, X i = r

/-- The row of scores of query `(b, h, q)` against every key position. -/
def scores (Q K : (⟨4, ![2, 16, 2048, 64]⟩ : Shape).Idx → EReal) (b : Fin 2) (h : Fin 16) (q : Fin 2048) : Fin 2048 → EReal :=
  fun k' => scoreDivided (fun d : Fin 64 => Q (ix4 b h q d)) (fun d : Fin 64 => K (ix4 b h k' d))

/-- The attention array: the softmax over the key axis of the scores. -/
def attnSpec (Q K : (⟨4, ![2, 16, 2048, 64]⟩ : Shape).Idx → EReal) : (⟨4, ![2, 16, 2048, 2048]⟩ : Shape).Idx → EReal :=
  fun i => softmaxDiv (scores Q K (i 0) (i 1) (i 2)) (i 3)

/-- The output array: each attention row contracted with the values over the key axis. -/
def outSpec (Q K V : (⟨4, ![2, 16, 2048, 64]⟩ : Shape).Idx → EReal) : (⟨4, ![2, 16, 2048, 64]⟩ : Shape).Idx → EReal :=
  fun i => ∑ k : Fin 2048, attnSpec Q K (ix4 (i 0) (i 1) (i 2) k) * V (ix4 (i 0) (i 1) k (i 3))

/-- A query row `P0` and key rows `P1` that are the rows of real arrays Q and K at `(b, h, q)` and `(b, h, ·)`: the
    row softmax of the scaled scores, as a product with the reciprocal of the row sum, is the attention array's entry. -/
theorem attn_block (Q K : (⟨4, ![2, 16, 2048, 64]⟩ : Shape).Idx → EReal) (hQ : AllReal Q) (hK : AllReal K)
    (b : Fin 2) (h : Fin 16) (q k : Fin 2048) (P0 : Fin 64 → EReal) (P1 : Fin 2048 → Fin 64 → EReal)
    (h0 : ∀ d, P0 d = Q (ix4 b h q d)) (h1 : ∀ k' d, P1 k' d = K (ix4 b h k' d)) :
    softmaxMul (fun k' => scoreScaled P0 (P1 k')) k = attnSpec Q K (ix4 b h q k) := by
  obtain rfl : P0 = fun d => Q (ix4 b h q d) := funext h0
  obtain rfl : P1 = fun k' d => K (ix4 b h k' d) := funext fun k' => funext (h1 k')
  exact attn_row_eq (by norm_num) _ _ (fun d => hQ _) (fun k' d => hK _) k

/-- An attention row `A` and a value column `P2` that are those of the arrays at `(b, h, q)` and `(b, h, ·, d)`: their
    contraction over the key axis is the output array's entry. -/
theorem out_block (Q K V : (⟨4, ![2, 16, 2048, 64]⟩ : Shape).Idx → EReal) (b : Fin 2) (h : Fin 16) (q : Fin 2048) (d : Fin 64)
    (A P2 : Fin 2048 → EReal) (hA : ∀ k, A k = attnSpec Q K (ix4 b h q k)) (h2 : ∀ k, P2 k = V (ix4 b h k d)) :
    ∑ k : Fin 2048, A k * P2 k = outSpec Q K V (ix4 b h q d) :=
  Finset.sum_congr rfl fun k _ => by rw [hA k, h2 k]

end Cert.AttnSpec

end
-- ==== Proof.KernelValue.lean ====
/-
  The kernel's two result arrays after the run are the specification's arrays, when the argument arrays hold reals.

  The grid is (batch, head, query tile): 2 × 16 × 4 points. At a point the query window's block is the 512 query rows
  of that tile, the key and value windows' blocks are all 2048 rows of that batch and head, and the two output windows'
  blocks are the tile's 512 rows of the output array and of the attention array. An entry of a stored block depends on
  one query row and on every key row (and, for the output, on one value column), all of the same batch and head as the
  entry: so what a point writes back is its block of the specification's arrays. The output blocks tile their arrays:
  the point that covers query row q of batch b and head h is (b, h, q / 512).
-/
import proofs.«139377_j64544768524298_2_alg».proof.Proof.Gen.KernelIdeal.Value
import proofs.«139377_j64544768524298_2_alg».proof.Proof.KernelPay
import proofs.«139377_j64544768524298_2_alg».proof.Proof.AttnSpec

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.AttnMath Cert.AttnSpec Cert.KernelIdeal.Pay
open Idealize.ShloMosaic.Pipeline (Dat)

/-! ## One entry of a stored block, over any blocks that are rows of the arrays -/

/-- An entry of the attention block: when query block row `r` is row `q` of Q and the key block's rows are the rows of K,
    all at batch `b` and head `h`, the payload at `(r, k)` is the attention array at `(b, h, q, k)`. -/
theorem attn_entry (Q K : (⟨4, ![2, 16, 2048, 64]⟩ : Shape).Idx → EReal) (hQ : AllReal Q) (hK : AllReal K)
    (P0 : Vec Ideal S1x1x512x64 .f32) (P1 : Vec Ideal S1x1x2048x64 .f32) (b : Fin 2) (h : Fin 16) (q : Fin 2048)
    (r : Fin 512) (k : Fin 2048)
    (h0 : ∀ d : Fin 64, P0 (ix4 (0 : Fin 1) (0 : Fin 1) r d) = Q (ix4 b h q d))
    (h1 : ∀ (k' : Fin 2048) (d : Fin 64), P1 (ix4 (0 : Fin 1) (0 : Fin 1) k' d) = K (ix4 b h k' d)) :
    k0_pay2 (F := Ideal) P0 P1 (ix2 r k) = attnSpec Q K (ix4 b h q k) :=
  (pay2_at P0 P1 r k).trans (attn_block Q K hQ hK b h q k _ _ h0 h1)

/-- An entry of the output block: with the value block's rows the rows of V as well, the payload at `(r, d)` is the
    output array at `(b, h, q, d)`. -/
theorem out_entry (Q K V : (⟨4, ![2, 16, 2048, 64]⟩ : Shape).Idx → EReal) (hQ : AllReal Q) (hK : AllReal K)
    (P0 : Vec Ideal S1x1x512x64 .f32) (P1 P2 : Vec Ideal S1x1x2048x64 .f32) (b : Fin 2) (h : Fin 16) (q : Fin 2048)
    (r : Fin 512) (d : Fin 64)
    (h0 : ∀ d : Fin 64, P0 (ix4 (0 : Fin 1) (0 : Fin 1) r d) = Q (ix4 b h q d))
    (h1 : ∀ (k' : Fin 2048) (d : Fin 64), P1 (ix4 (0 : Fin 1) (0 : Fin 1) k' d) = K (ix4 b h k' d))
    (h2 : ∀ (k' : Fin 2048) (d : Fin 64), P2 (ix4 (0 : Fin 1) (0 : Fin 1) k' d) = V (ix4 b h k' d)) :
    k0_pay4 (F := Ideal) P0 P1 P2 (ix2 r d) = outSpec Q K V (ix4 b h q d) :=
  (pay4_at P0 P1 P2 r d).trans
    (out_block Q K V b h q d _ _ (fun k => attn_entry Q K hQ hK P0 P1 b h q r k h0 h1) (fun k => h2 k d))

/-! ## The index maps over the grid -/

variable (m : (ℓ : Loc nD τ sig) → Buf (Elt Ideal) ℓ) (ρ : Dev nD → PrngReg)

theorem hz : (![0, 0, 0, 0] : Fin 4 → Nat) = fun _ => 0 := funext fun a => by fin_cases a <;> rfl

/-- Decided over the 128 points: the query and both output windows sit at block (b, h, tile, 0), the key and value
    windows at block (b, h, 0, 0), with b < 2, h < 16, tile < 4. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_4.index t (0 : Fin 4) = win0_3.index t (0 : Fin 4) ∧ win0_4.index t (1 : Fin 4) = win0_3.index t (1 : Fin 4)
    ∧ win0_4.index t (2 : Fin 4) = win0_3.index t (2 : Fin 4) ∧ win0_4.index t (3 : Fin 4) = 0
    ∧ win0_3.index t (0 : Fin 4) ≤ 1 ∧ win0_3.index t (1 : Fin 4) ≤ 15 ∧ win0_3.index t (2 : Fin 4) ≤ 3
    ∧ win0_3.index t (3 : Fin 4) = 0 :=
  (by decide +kernel : ∀ t : Fin grid0.N, _)

/-- Every (batch, head, tile) is some point's block. -/
theorem idx_onto : ∀ (q0 : Fin 2) (q1 : Fin 16) (q2 : Fin 4), ∃ t : Fin cfg0.N, win0_3.index t = ![q0.val, q1.val, q2.val, 0] :=
  (by decide +kernel : ∀ (q0 : Fin 2) (q1 : Fin 16) (q2 : Fin 4), ∃ t : Fin grid0.N, win0_3.index t = ![q0.val, q1.val, q2.val, 0])

/-! ## What a point writes back -/

/-- Point `t` writes back its block of the attention array. -/
theorem flushed4_eq (c : Dev nD) (hQ : AllReal (V m c main_arg0)) (hK : AllReal (V m c main_arg1)) (t : Fin cfg0.N) :
    (dats m 0 c).flushed 4 t
      = ((cfg0.win 4).blk t).view.read (Elt Ideal) (attnSpec (V m c main_arg0) (V m c main_arg1)) := by
  rw [Value.flushed4]
  unfold out0_4
  simp only [View.ld_unit_zero (S := S1x1x512x64) hz, View.ld_unit_zero (S := S1x1x2048x64) hz]
  obtain ⟨e00, e01, e02, e03, e10, e11, e12, e13, e20, e21, e22, e23, e40, e41, e42, e43, b0, b1, b2, b3⟩ := idx_facts t
  funext y
  show (View.canon [⟨r0_2, k0_pay3 (F := Ideal) (iblk m c 0 t) (iblk m c 1 t)⟩] y : Elt Ideal .f32)
    = attnSpec (V m c main_arg0) (V m c main_arg1) (((cfg0.win 4).blk t).view.emb y)
  refine (Value.canon4_eq (iblk m c 0 t) (iblk m c 1 t) y).trans ?_
  have hy0 : (y 0).val < 1 := (y 0).isLt
  have hy1 : (y 1).val < 1 := (y 1).isLt
  have hy2 : (y 2).val < 512 := (y 2).isLt
  have hy3 : (y 3).val < 2048 := (y 3).isLt
  have hix : Value.ix4_0 y = ix2 (⟨(y 2).val, hy2⟩ : Fin 512) (⟨(y 3).val, hy3⟩ : Fin 2048) := funext fun a => by
    match a with
    | ⟨0, _⟩ => rfl
    | ⟨1, _⟩ => rfl
  have hemb : ((cfg0.win 4).blk t).view.emb y
      = ix4 (⟨win0_3.index t (0 : Fin 4), by omega⟩ : Fin 2) (⟨win0_3.index t (1 : Fin 4), by omega⟩ : Fin 16)
          (⟨win0_3.index t (2 : Fin 4) * 512 + (y 2).val, by omega⟩ : Fin 2048) (⟨(y 3).val, hy3⟩ : Fin 2048) := by
    funext a; apply Fin.ext
    match a with
    | ⟨0, _⟩ => show win0_4.index t (0 : Fin 4) * 1 + 1 * (y 0).val = win0_3.index t (0 : Fin 4); omega
    | ⟨1, _⟩ => show win0_4.index t (1 : Fin 4) * 1 + 1 * (y 1).val = win0_3.index t (1 : Fin 4); omega
    | ⟨2, _⟩ => show win0_4.index t (2 : Fin 4) * 512 + 1 * (y 2).val = win0_3.index t (2 : Fin 4) * 512 + (y 2).val; omega
    | ⟨3, _⟩ => show win0_4.index t (3 : Fin 4) * 2048 + 1 * (y 3).val = (y 3).val; omega
  show k0_pay2 (F := Ideal) (iblk m c 0 t) (iblk m c 1 t) (Value.ix4_0 y) = _
  rw [hix, hemb]
  refine attn_entry _ _ hQ hK (iblk m c 0 t) (iblk m c 1 t) _ _ _ _ _ (fun d => ?_) (fun k' d => ?_)
  · show V m c main_arg0 (((cfg0.win 0).blk t).view.emb (ix4 (0 : Fin 1) (0 : Fin 1) (⟨(y 2).val, hy2⟩ : Fin 512) d)) = _
    refine congrArg (V m c main_arg0) (funext fun a => Fin.ext ?_)
    have hd : d.val < 64 := d.isLt
    match a with
    | ⟨0, _⟩ => show win0_0.index t (0 : Fin 4) * 1 + 1 * 0 = win0_3.index t (0 : Fin 4); omega
    | ⟨1, _⟩ => show win0_0.index t (1 : Fin 4) * 1 + 1 * 0 = win0_3.index t (1 : Fin 4); omega
    | ⟨2, _⟩ => show win0_0.index t (2 : Fin 4) * 512 + 1 * (y 2).val = win0_3.index t (2 : Fin 4) * 512 + (y 2).val; omega
    | ⟨3, _⟩ => show win0_0.index t (3 : Fin 4) * 64 + 1 * d.val = d.val; omega
  · show V m c main_arg1 (((cfg0.win 1).blk t).view.emb (ix4 (0 : Fin 1) (0 : Fin 1) k' d)) = _
    refine congrArg (V m c main_arg1) (funext fun a => Fin.ext ?_)
    match a with
    | ⟨0, _⟩ => show win0_1.index t (0 : Fin 4) * 1 + 1 * 0 = win0_3.index t (0 : Fin 4); omega
    | ⟨1, _⟩ => show win0_1.index t (1 : Fin 4) * 1 + 1 * 0 = win0_3.index t (1 : Fin 4); omega
    | ⟨2, _⟩ => show win0_1.index t (2 : Fin 4) * 2048 + 1 * k'.val = k'.val; omega
    | ⟨3, _⟩ => show win0_1.index t (3 : Fin 4) * 64 + 1 * d.val = d.val; omega

/-- Point `t` writes back its block of the output array. -/
theorem flushed3_eq (c : Dev nD) (hQ : AllReal (V m c main_arg0)) (hK : AllReal (V m c main_arg1)) (t : Fin cfg0.N) :
    (dats m 0 c).flushed 3 t
      = ((cfg0.win 3).blk t).view.read (Elt Ideal) (outSpec (V m c main_arg0) (V m c main_arg1) (V m c main_arg2)) := by
  rw [Value.flushed3]
  unfold out0_3
  simp only [View.ld_unit_zero (S := S1x1x512x64) hz, View.ld_unit_zero (S := S1x1x2048x64) hz]
  obtain ⟨e00, e01, e02, e03, e10, e11, e12, e13, e20, e21, e22, e23, e40, e41, e42, e43, b0, b1, b2, b3⟩ := idx_facts t
  funext y
  show (View.canon [⟨r0_0, k0_pay1 (F := Ideal) (k0_pay4 (F := Ideal) (iblk m c 0 t) (iblk m c 1 t) (iblk m c 2 t))⟩] y : Elt Ideal .f32)
    = outSpec (V m c main_arg0) (V m c main_arg1) (V m c main_arg2) (((cfg0.win 3).blk t).view.emb y)
  refine (Value.canon3_eq (iblk m c 0 t) (iblk m c 1 t) (iblk m c 2 t) y).trans ?_
  have hy0 : (y 0).val < 1 := (y 0).isLt
  have hy1 : (y 1).val < 1 := (y 1).isLt
  have hy2 : (y 2).val < 512 := (y 2).isLt
  have hy3 : (y 3).val < 64 := (y 3).isLt
  have hix : Value.ix3_0 y = ix2 (⟨(y 2).val, hy2⟩ : Fin 512) (⟨(y 3).val, hy3⟩ : Fin 64) := funext fun a => by
    match a with
    | ⟨0, _⟩ => rfl
    | ⟨1, _⟩ => rfl
  have hemb : ((cfg0.win 3).blk t).view.emb y
      = ix4 (⟨win0_3.index t (0 : Fin 4), by omega⟩ : Fin 2) (⟨win0_3.index t (1 : Fin 4), by omega⟩ : Fin 16)
          (⟨win0_3.index t (2 : Fin 4) * 512 + (y 2).val, by omega⟩ : Fin 2048) (⟨(y 3).val, hy3⟩ : Fin 64) := by
    funext a; apply Fin.ext
    match a with
    | ⟨0, _⟩ => show win0_3.index t (0 : Fin 4) * 1 + 1 * (y 0).val = win0_3.index t (0 : Fin 4); omega
    | ⟨1, _⟩ => show win0_3.index t (1 : Fin 4) * 1 + 1 * (y 1).val = win0_3.index t (1 : Fin 4); omega
    | ⟨2, _⟩ => show win0_3.index t (2 : Fin 4) * 512 + 1 * (y 2).val = win0_3.index t (2 : Fin 4) * 512 + (y 2).val; omega
    | ⟨3, _⟩ => show win0_3.index t (3 : Fin 4) * 64 + 1 * (y 3).val = (y 3).val; omega
  show k0_pay4 (F := Ideal) (iblk m c 0 t) (iblk m c 1 t) (iblk m c 2 t) (Value.ix3_0 y) = _
  rw [hix, hemb]
  refine out_entry _ _ _ hQ hK (iblk m c 0 t) (iblk m c 1 t) (iblk m c 2 t) _ _ _ _ _ (fun d => ?_) (fun k' d => ?_) (fun k' d => ?_)
  · show V m c main_arg0 (((cfg0.win 0).blk t).view.emb (ix4 (0 : Fin 1) (0 : Fin 1) (⟨(y 2).val, hy2⟩ : Fin 512) d)) = _
    refine congrArg (V m c main_arg0) (funext fun a => Fin.ext ?_)
    have hd : d.val < 64 := d.isLt
    match a with
    | ⟨0, _⟩ => show win0_0.index t (0 : Fin 4) * 1 + 1 * 0 = win0_3.index t (0 : Fin 4); omega
    | ⟨1, _⟩ => show win0_0.index t (1 : Fin 4) * 1 + 1 * 0 = win0_3.index t (1 : Fin 4); omega
    | ⟨2, _⟩ => show win0_0.index t (2 : Fin 4) * 512 + 1 * (y 2).val = win0_3.index t (2 : Fin 4) * 512 + (y 2).val; omega
    | ⟨3, _⟩ => show win0_0.index t (3 : Fin 4) * 64 + 1 * d.val = d.val; omega
  · show V m c main_arg1 (((cfg0.win 1).blk t).view.emb (ix4 (0 : Fin 1) (0 : Fin 1) k' d)) = _
    refine congrArg (V m c main_arg1) (funext fun a => Fin.ext ?_)
    match a with
    | ⟨0, _⟩ => show win0_1.index t (0 : Fin 4) * 1 + 1 * 0 = win0_3.index t (0 : Fin 4); omega
    | ⟨1, _⟩ => show win0_1.index t (1 : Fin 4) * 1 + 1 * 0 = win0_3.index t (1 : Fin 4); omega
    | ⟨2, _⟩ => show win0_1.index t (2 : Fin 4) * 2048 + 1 * k'.val = k'.val; omega
    | ⟨3, _⟩ => show win0_1.index t (3 : Fin 4) * 64 + 1 * d.val = d.val; omega
  · show V m c main_arg2 (((cfg0.win 2).blk t).view.emb (ix4 (0 : Fin 1) (0 : Fin 1) k' d)) = _
    refine congrArg (V m c main_arg2) (funext fun a => Fin.ext ?_)
    match a with
    | ⟨0, _⟩ => show win0_2.index t (0 : Fin 4) * 1 + 1 * 0 = win0_3.index t (0 : Fin 4); omega
    | ⟨1, _⟩ => show win0_2.index t (1 : Fin 4) * 1 + 1 * 0 = win0_3.index t (1 : Fin 4); omega
    | ⟨2, _⟩ => show win0_2.index t (2 : Fin 4) * 2048 + 1 * k'.val = k'.val; omega
    | ⟨3, _⟩ => show win0_2.index t (3 : Fin 4) * 64 + 1 * d.val = d.val; omega

/-! ## The blocks tile the arrays -/

/-- An index of the attention array is in point `t`'s block iff each coordinate is in the block's range on its axis. -/
theorem mem_blk4 (t : Fin cfg0.N) (i : S2x16x2048x2048.Idx) :
    i ∈ ((cfg0.win 4).blk t).view.set ↔ ∀ a : Fin 4, win0_4.index t a * S1x1x512x2048.size a ≤ (i a).val
      ∧ (i a).val < win0_4.index t a * S1x1x512x2048.size a + S1x1x512x2048.size a := by
  show i ∈ ((View.whole main_v0_1).slice (win0_4.rect t)).set ↔ _
  rw [View.set_slice_whole, Rect.mem_set_unit]
  exact Iff.rfl

/-- The same for the output array. -/
theorem mem_blk3 (t : Fin cfg0.N) (i : S2x16x2048x64.Idx) :
    i ∈ ((cfg0.win 3).blk t).view.set ↔ ∀ a : Fin 4, win0_3.index t a * S1x1x512x64.size a ≤ (i a).val
      ∧ (i a).val < win0_3.index t a * S1x1x512x64.size a + S1x1x512x64.size a := by
  show i ∈ ((View.whole main_v0_0).slice (win0_3.rect t)).set ↔ _
  rw [View.set_slice_whole, Rect.mem_set_unit]
  exact Iff.rfl

/-- Every index of the attention array is in the block of the point of its batch, head and query tile. -/
theorem cover4 (i : S2x16x2048x2048.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  obtain ⟨e00, e01, e02, e03, e10, e11, e12, e13, e20, e21, e22, e23, e40, e41, e42, e43, b0, b1, b2, b3⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

/-- Every index of the output array likewise. -/
theorem cover3 (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  obtain ⟨e00, e01, e02, e03, e10, e11, e12, e13, e20, e21, e22, e23, e40, e41, e42, e43, b0, b1, b2, b3⟩ := idx_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-! ## The arrays after the run -/

/-- The attention array after the run is the specification's. -/
theorem final4 (c : Dev nD) (hQ : AllReal (V m c main_arg0)) (hK : AllReal (V m c main_arg1)) :
    (dats m 0 c).arrAt 4 cfg0.N = attnSpec (V m c main_arg0) (V m c main_arg1) :=
  (dats m 0 c).arrAt_eq_of_cover 4 _ (fun t _ => flushed4_eq m c hQ hK t) cover4

/-- The output array after the run is the specification's. -/
theorem final3 (c : Dev nD) (hQ : AllReal (V m c main_arg0)) (hK : AllReal (V m c main_arg1)) :
    (dats m 0 c).arrAt 3 cfg0.N = outSpec (V m c main_arg0) (V m c main_arg1) (V m c main_arg2) :=
  (dats m 0 c).arrAt_eq_of_cover 3 _ (fun t _ => flushed3_eq m c hQ hK t) cover3

/-- The run re-posted: from argument arrays of reals, each result array ends at the specification's function of the
    arguments, the arguments unchanged. -/
theorem run (hreal : ∀ c : Dev nD, AllReal (m ((c : Thread nD τ).loc main_arg0)) ∧ AllReal (m ((c : Thread nD τ).loc main_arg1))) :
    θ_run defs (onTc (τ := τ) (main (F := Ideal))) ⟨m, fun _ => 0, ρ⟩ fun r => ∀ c : Dev nD,
      r.2.mem ((c : Thread nD τ).loc main_v0_0)
        = outSpec (m ((c : Thread nD τ).loc main_arg0)) (m ((c : Thread nD τ).loc main_arg1)) (m ((c : Thread nD τ).loc main_arg2))
      ∧ r.2.mem ((c : Thread nD τ).loc main_v0_1)
        = attnSpec (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c (hreal c).1 (hreal c).2),
      (h c).2.1.trans (final4 m c (hreal c).1 (hreal c).2), (h c).2.2⟩)
    (Value.run_blocks m ρ)

end Cert.KernelIdeal.Whole

end
-- ==== Proof.RefIsSpec.lean ====
/-
  The reference's two results are the specification's arrays.

  Stage by stage at an index: the first product over the features divided by the root of 64 is a score; the
  maximum over the key axis (a fold of max from negative infinity, and a further max with negative infinity that
  changes nothing) is the row maximum; the exponential of the difference is the shifted exponential; zero plus the
  sum over the key axis is the row sum; the quotient is the softmax entry; the second product over the key axis is
  the output entry.
-/
import proofs.«139377_j64544768524298_2_alg».proof.Proof.Gen.ReferenceIdeal.Read
import proofs.«139377_j64544768524298_2_alg».proof.Proof.AttnSpec

noncomputable section

open scoped BigOperators

namespace Cert.ReferenceIdeal.RefSpec

open Cert.ReferenceIdeal Cert.ReferenceIdeal.Gen Cert.ReferenceIdeal.Read Idealize.ShloMosaic Idealize.ShloMosaic.ValueIdx
open Cert.AttnMath Cert.AttnSpec

/-- The scaled product at `(b, h, q, k)` is the score of query `(b, h, q)` against key `k`. -/
theorem v3_at (Q K : (⟨S2x16x2048x64, .f32⟩ : BufTy).Contents (Elt Ideal)) (j : S2x16x2048x2048.Idx) :
    val_main_v3 (F := Ideal) Q K j = scores Q K (j 0) (j 1) (j 2) (j 3) := by
  rw [val_main_v3_apply, val_main_v0_apply, val_main_v2_apply, val_main_v1_apply, val_main_cst_apply]
  have el : ∀ d : Fin 64, lidx_main_v0 j d = ix4 (j 0) (j 1) (j 2) d := fun d => funext fun a => Fin.ext (by
    match a with
    | ⟨0, _⟩ => rfl
    | ⟨1, _⟩ => rfl
    | ⟨2, _⟩ => rfl
    | ⟨3, _⟩ => rfl)
  have er : ∀ d : Fin 64, ridx_main_v0 j d = ix4 (j 0) (j 1) (j 3) d := fun d => funext fun a => Fin.ext (by
    match a with
    | ⟨0, _⟩ => rfl
    | ⟨1, _⟩ => rfl
    | ⟨2, _⟩ => rfl
    | ⟨3, _⟩ => rfl)
  simp only [el, er]
  rfl

/-- The maximum over the key axis at `(b, h, q)` is the row maximum of that query's scores. -/
theorem v4_at (Q K : (⟨S2x16x2048x64, .f32⟩ : BufTy).Contents (Elt Ideal)) (j : S2x16x2048.Idx) :
    val_main_v4 (F := Ideal) Q K j = rowMax (scores Q K (j 0) (j 1) (j 2)) := by
  unfold val_main_v4
  rw [Host.reduce_eq_fold_single FloatOps.maximumf _ _ reducesTo_S2x16x2048x2048_S2x16x2048_d3
    (by decide : S2x16x2048x2048.Reduces [3] S2x16x2048) h_S_]
  have hf : (val_main_v3 (F := Ideal) Q K ∘ (by decide : S2x16x2048x2048.Reduces [3] S2x16x2048).lift j)
      = fun k : Fin 2048 => scores Q K (j 0) (j 1) (j 2) k := funext fun k => by
    show val_main_v3 (F := Ideal) Q K ((by decide : S2x16x2048x2048.Reduces [3] S2x16x2048).lift j k) = _
    rw [v3_at]
    rfl
  exact congrArg (fun f => Finset.fold max (Ideal.ofBits .f32 0xFF800000#32) f (Finset.univ : Finset (Fin 2048))) hf

/-- The exponential stage at `(b, h, q, k)` is the shifted exponential of that query's scores at `k`. -/
theorem v10_at (Q K : (⟨S2x16x2048x64, .f32⟩ : BufTy).Contents (Elt Ideal)) (j : S2x16x2048x2048.Idx) :
    val_main_v10 (F := Ideal) Q K j = expShifted (scores Q K (j 0) (j 1) (j 2)) (j 3) := by
  rw [val_main_v10_apply, val_main_v9_apply, v3_at, val_main_v8_apply, val_main_v7_apply, val_main_v6_apply,
    val_main_v5_apply, val_main_cst_1_apply, v4_at]
  show Ideal.exp (scores Q K (j 0) (j 1) (j 2) (j 3) - max (Ideal.ofBits .f32 0xFF800000#32) (rowMax (scores Q K (j 0) (j 1) (j 2)))) = _
  rw [ofBits_neg_inf, max_eq_right bot_le]
  rfl

/-- The reference's attention result is the specification's attention array. -/
theorem ref_attn (Q K : (⟨S2x16x2048x64, .f32⟩ : BufTy).Contents (Elt Ideal)) :
    val_main_v14 (F := Ideal) Q K = attnSpec Q K := by
  funext i
  rw [val_main_v14_apply, v10_at, val_main_v13_apply, val_main_v12_apply, val_main_v11_apply, val_main_cst_2_apply]
  simp only [v10_at]
  show Ideal.div (expShifted (scores Q K (i 0) (i 1) (i 2)) (i 3))
    (Ideal.ofBits .f32 0x00000000#32 + ∑ k : Fin 2048, expShifted (scores Q K (i 0) (i 1) (i 2)) k) = _
  rw [Ideal.ofBits_zero_f32, zero_add]
  rfl

/-- The reference's output result is the specification's output array. -/
theorem ref_out (Q K V : (⟨S2x16x2048x64, .f32⟩ : BufTy).Contents (Elt Ideal)) :
    val_main_v15 (F := Ideal) Q K V = outSpec Q K V := by
  funext i
  rw [val_main_v15_apply, ref_attn]
  refine Finset.sum_congr rfl fun k _ => ?_
  have el : lidx_main_v15 i k = ix4 (i 0) (i 1) (i 2) k := funext fun a => Fin.ext (by
    match a with
    | ⟨0, _⟩ => rfl
    | ⟨1, _⟩ => rfl
    | ⟨2, _⟩ => rfl
    | ⟨3, _⟩ => rfl)
  have er : ridx_main_v15 i k = ix4 (i 0) (i 1) k (i 3) := funext fun a => Fin.ext (by
    match a with
    | ⟨0, _⟩ => rfl
    | ⟨1, _⟩ => rfl
    | ⟨2, _⟩ => rfl
    | ⟨3, _⟩ => rfl)
  rw [el, er]
  rfl

end Cert.ReferenceIdeal.RefSpec

end
-- ==== Proof.PreReal.lean ====
/-
  The precondition says every entry of the three argument arrays is a real.

  It is the conjunction, for each array, of "every entry's absolute value is below positive infinity". On the
  extended reals the absolute value of either infinity is positive infinity, which is not below itself; so an entry
  that passes is a real.
-/
import proofs.«139377_j64544768524298_2_alg».proof.Pre_finite_inputs
import proofs.«139377_j64544768524298_2_alg».proof.Proof.AttnSpec
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx Cert.AttnSpec

instance : Subsingleton S_.Idx := ⟨fun a b => funext fun d => d.elim0⟩

/-- An extended real whose absolute value is below positive infinity is a real. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- One array's conjunct: if "all entries have absolute value below positive infinity" holds, every entry is a real. -/
theorem allReal_of_all (X : FVec Ideal S2x16x2048x64 .f32)
    (hb : S_.BroadcastsInDim S2x16x2048x64 (![] : Fin 0 → Fin S2x16x2048x64.rank))
    (hr : S2x16x2048x64.ReducesTo [0, 1, 2, 3] S_) (hu : 0 < S_.numel) (j : S_.Idx)
    (e : Host.reduce IntOp.andi (cmpf .olt (Host.absf X) (broadcastInDim S2x16x2048x64 ![] hb (constant S_ .f32 0x7F800000#32)))
      (constantI S_ 1 1#1) hr hu j = 1#1) : AllReal X := fun i =>
  real_of_abs_lt_top (X i) (Host.reduce_andi_all _ _ hr hu j e i)

/-- The precondition of the three arrays gives that each holds reals only. -/
theorem allReal [Facts] (Q K V : FVec Ideal S2x16x2048x64 .f32) (h : fn (F := Ideal) Q K V = fun _ => 1#1) :
    AllReal Q ∧ AllReal K ∧ AllReal V := by
  have h0 := congrFun h ix0
  dsimp only [fn] at h0
  obtain ⟨h01, h2⟩ := IntOp.andi_eq_one.1 h0
  obtain ⟨hq, hk⟩ := IntOp.andi_eq_one.1 h01
  exact ⟨allReal_of_all Q _ _ _ _ hq, allReal_of_all K _ _ _ _ hk, allReal_of_all V _ _ _ _ h2⟩

end Cert.Pre_finite_inputs.Decode

end
-- ==== Proof.lean ====
/-
  Scaled dot-product attention over Q, K, V of shape [2, 16, 2048, 64], tiled by 512 query rows, against the plain
  formulation: both return the output array and the attention array.

  On the extended reals, with every argument entry a real, both programs compute, for batch b, head h and query row q,
  the scores s k = (Σ_d Q[b,h,q,d] · K[b,h,k,d]) / 8, the attention row exp (s k − max s) / Σ_k' exp (s k' − max s), and
  the output row Σ_k attention[k] · V[b,h,k,d]. They differ in two places. The kernel multiplies each query entry by
  0.125 before the contraction where the reference divides the contraction by the square root of 64: equal on reals,
  since the root is 8 and a real factor moves across a finite real sum. The kernel multiplies the exponentials by
  1 / L where the reference divides by L, L the row sum: equal since L is not zero — the scores are real, so their
  maximum is real and L is a sum of positive reals. The precondition supplies that the entries are reals.

  The kernel's tiles are put together in Proof/KernelValue.lean (every point of the 2 × 16 × 4 grid writes back its
  block of the two arrays, and the blocks tile them), the body's arithmetic is read in Proof/KernelPay.lean, the
  reference's stages in Proof/RefIsSpec.lean, the precondition in Proof/PreReal.lean; the row mathematics is
  Proof/AttnMath.lean and the arrays' specification Proof/AttnSpec.lean.
-/
import proofs.«139377_j64544768524298_2_alg».proof.Defs
import proofs.«139377_j64544768524298_2_alg».proof.Proof.Gen.Kernel
import proofs.«139377_j64544768524298_2_alg».proof.Proof.Gen.Kernel.Skeleton
import proofs.«139377_j64544768524298_2_alg».proof.Proof.Gen.Kernel.Launch
import proofs.«139377_j64544768524298_2_alg».proof.Proof.Gen.Kernel.Points
import proofs.«139377_j64544768524298_2_alg».proof.Proof.Gen.Kernel.Frame
import proofs.«139377_j64544768524298_2_alg».proof.Proof.Gen.KernelIdeal
import proofs.«139377_j64544768524298_2_alg».proof.Proof.Gen.KernelIdeal.Skeleton
import proofs.«139377_j64544768524298_2_alg».proof.Proof.Gen.KernelIdeal.Launch
import proofs.«139377_j64544768524298_2_alg».proof.Proof.Gen.KernelIdeal.Points
import proofs.«139377_j64544768524298_2_alg».proof.Proof.Gen.KernelIdeal.Frame
import proofs.«139377_j64544768524298_2_alg».proof.Proof.Gen.ReferenceIdeal
import proofs.«139377_j64544768524298_2_alg».proof.Proof.Gen.Pre_finite_inputs
import proofs.«139377_j64544768524298_2_alg».proof.Proof.Gen.KernelIdeal.Value
import proofs.«139377_j64544768524298_2_alg».proof.Proof.Gen.ReferenceIdeal.Run
import proofs.«139377_j64544768524298_2_alg».proof.Proof.Gen.ReferenceIdeal.Read
import proofs.«139377_j64544768524298_2_alg».proof.Proof.KernelValue
import proofs.«139377_j64544768524298_2_alg».proof.Proof.RefIsSpec
import proofs.«139377_j64544768524298_2_alg».proof.Proof.PreReal
import Idealize.ShloMosaic.Adequacy
import Idealize.ShloMosaic.Init

noncomputable section

namespace Cert.Proof

open Idealize.ShloMosaic Idealize.SL.Sem Cert.Kernel Cert.AttnSpec

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on real arguments both programs end with the output array and the attention array at the
    specification's functions of the arguments. -/
theorem algebraic : Cert.algebraic_KernelIdeal_ReferenceIdeal := by
  intro m ρ m' ρ' hpre hagree
  have hreal : ∀ c : Dev Cert.KernelIdeal.nD,
      AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg1)) := fun c =>
    have h := Cert.Pre_finite_inputs.Decode.allReal _ _ _ (hpre c)
    ⟨h.1, h.2.1⟩
  refine ⟨fun c => outSpec (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => attnSpec (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    Cert.KernelIdeal.Whole.run m ρ hreal, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefSpec.ref_out, (hagree c).1, (hagree c).2.1, (hagree c).2.2]
  · rw [Cert.ReferenceIdeal.Read.val_main_v14_eq, Cert.ReferenceIdeal.RefSpec.ref_attn, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
